-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100352x128 : Shape := ⟨2, ![100352, 128]⟩
abbrev S100352x1 : Shape := ⟨2, ![100352, 1]⟩
abbrev S2048x128 : Shape := ⟨2, ![2048, 128]⟩
abbrev S2048x1 : Shape := ⟨2, ![2048, 1]⟩

abbrev nBuf : Space → Nat
  | .hbm => 46
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S100000x1, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S100352x128, .f32⟩
  | .hbm, ⟨41, _⟩ => ⟨S_, .i32⟩
  | .hbm, ⟨42, _⟩ => ⟨S_, .f32⟩
  | .hbm, ⟨43, _⟩ => ⟨S100352x1, .f32⟩
  | .hbm, ⟨44, _⟩ => ⟨S100352x128, .f32⟩
  | .hbm, ⟨45, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call0_v0 : Ref sig .tc := ⟨.hbm, 39, rfl⟩
abbrev main_v25 : Ref sig .tc := ⟨.hbm, 40, rfl⟩
abbrev main_c_4 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  transposes_S128x128_S128x128_1_0 : S128x128.Transposes [1, 0] S128x128
  shapeCasts_S128_S1x128 : S128.ShapeCasts S1x128
  pads_S100000x128_S100352x128_03520_000 : S100000x128.Pads (![0, 0] : Fin 2 → Nat) ![352, 0] ![0, 0] S100352x128
  h_S_ : 0 < S_.numel
  pads_S100000x1_S100352x1_03520_000 : S100000x1.Pads (![0, 0] : Fin 2 → Nat) ![352, 0] ![0, 0] S100352x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S100352x1.size a
  hwx0_1 : ∀ i : grid0.Coords, EltTy.bits .f32 = 32 ∨ (Rect.block (s := S100352x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S100352x128.size a
  hwx0_8 : ∀ i : grid0.Coords, EltTy.bits .f32 = 32 ∨ (Rect.block (s := S100352x128) S2048x128.size (cc0_transform_8 i) (hinb0_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v25) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeSpec.lean ====
/-
  The function of one graph node that both programs compute, on the extended reals.

  For a node with summed incoming messages `s : Fin 128 → EReal` and in-degree `d`:
    a      = s / max(1, d)                         (the mean of the messages; an isolated node divides by 1)
    h_k    = (Σ_l a_l · Win_{k,l}) + bin_k          (a linear layer, the weight stored output-major)
    g_k    = logistic((Σ_l a_l · Wg_{k,l}) + bg_k)   (the gate)
    out_j  = (Σ_k (max(h_k, 0) · g_k) · Wo_{j,k}) + bo_j
  The sums run over `Fin 128` in its own order on both sides, so no reordering law is needed, and none of the
  identities used below needs its arguments finite: `max` is commutative on the extended reals, and the logistic
  function IS the quotient `1 / (1 + exp (-x))` there, corners included.
-/
import Idealize.ShloMosaic.PureOps.Ideal
import Idealize.ShloMosaic.PureOps.Ideal.Laws

noncomputable section

namespace Cert.NodeSpec

open Idealize.ShloMosaic

/-- The float word `1.0`, as both programs spell the degree's floor. -/
abbrev oneW : EReal := Ideal.ofBits .f32 0x3F800000#32
/-- The float word `+0.0`, as both programs spell the rectifier's threshold. -/
abbrev zeroW : EReal := Ideal.ofBits .f32 0x00000000#32

/-- The word `1.0` denotes the real number one. -/
theorem oneW_eq : Ideal.ofBits .f32 0x3F800000#32 = 1 := by
  simp [Ideal.ofBits, Ideal.ieee, -EReal.coe_mul]; norm_num

/-- The mean of a node's messages: their sum over the degree, the degree floored at one. -/
def mean (s : Fin 128 → EReal) (d : EReal) : Fin 128 → EReal :=
  fun l => Ideal.div (s l) (max oneW d)

/-- A linear layer with bias: `W k l` is the weight from input feature `l` to output feature `k`. -/
def affine (W : Fin 128 → Fin 128 → EReal) (b : Fin 128 → EReal) (a : Fin 128 → EReal) : Fin 128 → EReal :=
  fun k => (∑ l : Fin 128, a l * W k l) + b k

/-- The gated features: the rectified input layer times the logistic gate. -/
def gated (Win : Fin 128 → Fin 128 → EReal) (bin : Fin 128 → EReal) (Wg : Fin 128 → Fin 128 → EReal) (bg : Fin 128 → EReal)
    (a : Fin 128 → EReal) : Fin 128 → EReal :=
  fun k => max (affine Win bin a k) zeroW * Ideal.logistic (affine Wg bg a k)

/-- One node's output features from its summed messages, its degree and the three layers' parameters. -/
def node (s : Fin 128 → EReal) (d : EReal) (Win : Fin 128 → Fin 128 → EReal) (bin : Fin 128 → EReal)
    (Wg : Fin 128 → Fin 128 → EReal) (bg : Fin 128 → EReal) (Wo : Fin 128 → Fin 128 → EReal) (bo : Fin 128 → EReal) :
    Fin 128 → EReal :=
  affine Wo bo (gated Win bin Wg bg (mean s d))

/-- The logistic function spelt as a quotient with the float word `1.0` in both places. -/
theorem logistic_eq_quotient (x : EReal) :
    Ideal.logistic x = Ideal.div oneW (oneW + Ideal.exp (-x)) := by
  show Ideal.div 1 (1 + Ideal.exp (-x)) = Ideal.div (Ideal.ofBits .f32 0x3F800000#32) (Ideal.ofBits .f32 0x3F800000#32 + Ideal.exp (-x))
  rw [oneW_eq]

end Cert.NodeSpec

end
-- ==== Proof.RefValue.lean ====
/-
  The reference, read at one element: entry (i, j) of its result is feature j of `NodeSpec.node` applied to row i
  of the summed messages and to node i's degree, with the three weight matrices read output-major (the reference
  transposes each before contracting, so its product reads W at (k, l) for output k and input l) and the biases
  broadcast along the rows.
-/
import proofs.«108634_j11699490914481_1_alg».proof.Proof.Gen.ReferenceIdeal.Read
import proofs.«108634_j11699490914481_1_alg».proof.Proof.NodeSpec
import Idealize.ShloMosaic.Lib.ValueIdx

noncomputable section

namespace Cert.RefValue

open Cert.ReferenceIdeal Cert.ReferenceIdeal.Gen Cert.ReferenceIdeal.Read
open Idealize.ShloMosaic Idealize.ShloMosaic.ValueIdx Cert.NodeSpec

/-! ## Where each stage reads its operand: the composed index maps on indices given by coordinates -/

theorem lidx41 (i : Fin 100000) (j k : Fin 128) : lidx_main_v41 (ix2 i j) k = ix2 i k :=
  funext fun a => Fin.ext (by match a with | ⟨0, _⟩ => rfl | ⟨1, _⟩ => rfl)
theorem ridx41 (i : Fin 100000) (j k : Fin 128) : ridx_main_v41 (ix2 i j) k = ix2 k j :=
  funext fun a => Fin.ext (by match a with | ⟨0, _⟩ => rfl | ⟨1, _⟩ => rfl)
theorem lidx23 (i : Fin 100000) (j k : Fin 128) : lidx_main_v23 (ix2 i j) k = ix2 i k :=
  funext fun a => Fin.ext (by match a with | ⟨0, _⟩ => rfl | ⟨1, _⟩ => rfl)
theorem ridx23 (i : Fin 100000) (j k : Fin 128) : ridx_main_v23 (ix2 i j) k = ix2 k j :=
  funext fun a => Fin.ext (by match a with | ⟨0, _⟩ => rfl | ⟨1, _⟩ => rfl)
theorem lidx28 (i : Fin 100000) (j k : Fin 128) : lidx_main_v28 (ix2 i j) k = ix2 i k :=
  funext fun a => Fin.ext (by match a with | ⟨0, _⟩ => rfl | ⟨1, _⟩ => rfl)
theorem ridx28 (i : Fin 100000) (j k : Fin 128) : ridx_main_v28 (ix2 i j) k = ix2 k j :=
  funext fun a => Fin.ext (by match a with | ⟨0, _⟩ => rfl | ⟨1, _⟩ => rfl)
/-- A transposed weight at (l, k) is the weight at (k, l). -/
theorem idx22 (l k : Fin 128) : idx_main_v22 (ix2 l k) = ix2 k l :=
  funext fun a => Fin.ext (by match a with | ⟨0, _⟩ => rfl | ⟨1, _⟩ => rfl)
theorem idx27 (l k : Fin 128) : idx_main_v27 (ix2 l k) = ix2 k l :=
  funext fun a => Fin.ext (by match a with | ⟨0, _⟩ => rfl | ⟨1, _⟩ => rfl)
theorem idx40 (l k : Fin 128) : idx_main_v40 (ix2 l k) = ix2 k l :=
  funext fun a => Fin.ext (by match a with | ⟨0, _⟩ => rfl | ⟨1, _⟩ => rfl)
/-- The degree column broadcast along a row reads the row's one degree. -/
theorem idx20 (i : Fin 100000) (l : Fin 128) : idx_main_v20 (ix2 i l) = ix2 i (0 : Fin 1) :=
  funext fun a => Fin.ext (by match a with | ⟨0, _⟩ => rfl | ⟨1, _⟩ => rfl)
theorem idx19 (i : Fin 100000) (u : Fin 1) : idx_main_v19 (ix2 i u) = ix1 i :=
  funext fun a => Fin.ext (by match a with | ⟨0, _⟩ => rfl)
/-- A bias broadcast along the rows reads its feature. -/
theorem idx25 (i : Fin 100000) (k : Fin 128) : idx_main_v25 (ix2 i k) = ix2 (0 : Fin 1) k :=
  funext fun a => Fin.ext (by match a with | ⟨0, _⟩ => rfl | ⟨1, _⟩ => rfl)
theorem idx24 (u : Fin 1) (k : Fin 128) : idx_main_v24 (ix2 u k) = ix1 k :=
  funext fun a => Fin.ext (by match a with | ⟨0, _⟩ => rfl)
theorem idx30 (i : Fin 100000) (k : Fin 128) : idx_main_v30 (ix2 i k) = ix2 (0 : Fin 1) k :=
  funext fun a => Fin.ext (by match a with | ⟨0, _⟩ => rfl | ⟨1, _⟩ => rfl)
theorem idx29 (u : Fin 1) (k : Fin 128) : idx_main_v29 (ix2 u k) = ix1 k :=
  funext fun a => Fin.ext (by match a with | ⟨0, _⟩ => rfl)
theorem idx43 (i : Fin 100000) (k : Fin 128) : idx_main_v43 (ix2 i k) = ix2 (0 : Fin 1) k :=
  funext fun a => Fin.ext (by match a with | ⟨0, _⟩ => rfl | ⟨1, _⟩ => rfl)
theorem idx42 (u : Fin 1) (k : Fin 128) : idx_main_v42 (ix2 u k) = ix1 k :=
  funext fun a => Fin.ext (by match a with | ⟨0, _⟩ => rfl)

/-! ## The result at an element -/

set_option maxHeartbeats 1000000 in
/-- Entry (i, j) of the reference's result is feature j of the node function of row i. -/
theorem result_apply (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (i : Fin 100000) (j : Fin 128) :
    val_main_v44 (F := Ideal) x0 x1 x2 x3 x4 x5 x6 x7 (ix2 i j)
      = node (fun l => val_main_v13 (F := Ideal) x0 x1 (ix2 i l)) (val_main_v17 (F := Ideal) x1 (ix1 i))
          (fun k l => x2 (ix2 k l)) (fun k => x3 (ix1 k)) (fun k l => x4 (ix2 k l)) (fun k => x5 (ix1 k))
          (fun k l => x6 (ix2 k l)) (fun k => x7 (ix1 k)) j := by
  simp only [val_main_v44_apply, val_main_v41_apply, val_main_v43_apply, val_main_v42_apply, val_main_v40_apply,
    val_main_v39_apply, val_main_v38_apply, val_main_v37_apply, val_main_v36_apply, val_main_v35_apply, val_main_v34_apply,
    val_main_v33_apply, val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_call0_v1_apply,
    val_main_call0_v0_apply, val_main_cst_3_apply, val_main_call1_v0_apply, val_main_call1_cst_apply,
    val_main_cst_4_apply, val_main_cst_5_apply,
    lidx41, ridx41, lidx23, ridx23, lidx28, ridx28, idx22, idx27, idx40, idx20, idx19, idx25, idx24, idx30, idx29, idx43, idx42,
    Ideal.ofBits_def, Ideal.addf_def, Ideal.mulf_def, Ideal.maximumf_def, Ideal.hostDivf_def, Ideal.hostNegf_def, Ideal.negf_def,
    Ideal.hostUnary_exp_def]
  simp only [node, affine, gated, mean, logistic_eq_quotient]

end Cert.RefValue

end
-- ==== Proof.Payload.lean ====
/-
  The kernel body, read at one element: entry (p, q) of the block it stores is feature q of `NodeSpec.node`
  applied to row p of the block of summed messages and to that row's degree. The body is the textbook chain:
  the degree floored at one and broadcast along the row, the quotient, then three matrix products into zero
  accumulators, each followed by its bias row broadcast down the rows; the roundings to bf16 before each product
  are the identity on the extended reals. The weights reach the body already transposed (input-major), so its
  products read them at (l, k) for input l and output k.
-/
import proofs.«108634_j11699490914481_1_alg».proof.Proof.Gen.KernelIdeal.Skeleton
import proofs.«108634_j11699490914481_1_alg».proof.Proof.NodeSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen
open Idealize.ShloMosaic Idealize.ShloMosaic.ValueIdx Cert.NodeSpec

/-! ## A column broadcast along the rows -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's matrix product at an element -/

/-- The product's dimension record: rows × features times features × features. -/
abbrev D : DotDims S2048x128 S128x128 S2048x128 := dot_S2048x128_S128x128_S2048x128_1_0_0_1_n_n

theorem lhs_row (j : S2048x128.Idx) (q : D.contr.Idx) : (D.lhsIdx j q 0).val = (j 0).val := by
  unfold DotDims.lhsIdx
  rw [dif_neg (show ¬(0 : Fin S2048x128.rank) ∈ D.lhsBatch by decide),
    dif_pos (show (0 : Fin S2048x128.rank) ∈ D.lhsNonContracting by decide)]
  rfl
theorem lhs_col (j : S2048x128.Idx) (q : D.contr.Idx) : (D.lhsIdx j q 1).val = (q ⟨0, by decide⟩).val :=
  D.lhsIdx_val_of_single rfl j q
theorem rhs_row (j : S2048x128.Idx) (q : D.contr.Idx) : (D.rhsIdx j q 0).val = (q ⟨0, by decide⟩).val :=
  D.rhsIdx_val_of_single rfl j q
theorem rhs_col (j : S2048x128.Idx) (q : D.contr.Idx) : (D.rhsIdx j q 1).val = (j 1).val := by
  unfold DotDims.rhsIdx
  rw [dif_neg (show ¬(1 : Fin S128x128.rank) ∈ D.rhsBatch by decide),
    dif_pos (show (1 : Fin S128x128.rank) ∈ D.rhsNonContracting by decide)]
  rfl

/-- A product into the zero accumulator, at (p, q): row p of the left factor against column q of the right. -/
theorem matmul_zero_apply (a : FVec Ideal S2048x128 .bf16) (w : FVec Ideal S128x128 .bf16) (p : Fin 2048) (q : Fin 128) :
    matmul D none a w (constant S2048x128 .f32 0x00000000#32) (ix2 p q) = ∑ l : Fin 128, a (ix2 p l) * w (ix2 l q) := by
  refine (Ideal.matmul_constant_zero_apply D none a w (ix2 p q)).trans ?_
  rw [← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun ax => Fin.ext (by
    match ax with
    | ⟨0, _⟩ => exact lhs_row _ _
    | ⟨1, _⟩ => exact (lhs_col _ _).trans hk)
  have er : D.rhsIdx (ix2 p q) ((ValueIdx.contrEquiv1 D 128 rfl rfl).symm k) = ix2 k q := funext fun ax => Fin.ext (by
    match ax with
    | ⟨0, _⟩ => exact (rhs_row _ _).trans hk
    | ⟨1, _⟩ => exact rhs_col _ _)
  rw [el, er]

/-- One layer of the body at (p, q): the product of the rows `a` with the loaded (input-major) weight block, plus
    the loaded bias row, is the linear layer applied to row p. -/
theorem layer_apply (a : FVec Ideal S2048x128 .bf16) (w : Vec Ideal S128x128 .f32) (b : Vec Ideal S1x128 .f32)
    (p : Fin 2048) (q : Fin 128) :
    addf (matmul D none a (truncf .bf16 (shapeCast S128x128 w shapeCasts_S128x128_S128x128) bitsLt_bf16_f32)
          (constant S2048x128 .f32 0x00000000#32))
        (broadcastTo S2048x128 (shapeCast S1x128 b shapeCasts_S1x128_S1x128) broadcasts_S1x128_S2048x128) (ix2 p q)
      = affine (fun k l => w (ix2 l k)) (fun k => b (ix2 (0 : Fin 1) k)) (fun l => a (ix2 p l)) q := by
  rw [addf_apply, matmul_zero_apply, broadcastTo_1b_ab_apply, shapeCast_self, shapeCast_self]
  rfl

/-- The mean the body forms, at (p, l): the summed message over the row's degree floored at one. -/
theorem mean_apply (v0 : Vec Ideal S2048x1 .f32) (v4 : Vec Ideal S2048x128 .f32) (p : Fin 2048) (l : Fin 128) :
    (truncf .bf16 (divf (shapeCast S2048x128 v4 shapeCasts_S2048x128_S2048x128)
        (broadcastTo S2048x128 (maximumf (shapeCast S2048x1 v0 shapeCasts_S2048x1_S2048x1)
          (broadcast S2048x1 (Scalar.ofBits .f32 0x3F800000#32))) broadcasts_S2048x1_S2048x128)) bitsLt_bf16_f32
      : FVec Ideal S2048x128 .bf16) (ix2 p l)
      = mean (fun l => v4 (ix2 p l)) (v0 (ix2 p (0 : Fin 1))) l := by
  rw [truncf_apply, divf_apply, broadcastTo_a1_ab_apply, maximumf_apply, shapeCast_self, shapeCast_self]
  exact congrArg (Ideal.div (v4 (ix2 p l))) (max_comm _ _)

/-! ## The payload -/

/-- Entry (p, q) of the stored block is feature q of the node function of the block's row p. -/
theorem payload_apply (v0 : Vec Ideal S2048x1 .f32) (v4 : Vec Ideal S2048x128 .f32) (v9 v12 v15 : Vec Ideal S128x128 .f32)
    (v19 v24 v34 : Vec Ideal S1x128 .f32) (p : Fin 2048) (q : Fin 128) :
    k0_pay1 (F := Ideal) v0 v4 v9 v12 v15 v19 v24 v34 (ix2 p q)
      = node (fun l => v4 (ix2 p l)) (v0 (ix2 p (0 : Fin 1))) (fun k l => v9 (ix2 l k)) (fun k => v19 (ix2 (0 : Fin 1) k))
          (fun k l => v12 (ix2 l k)) (fun k => v24 (ix2 (0 : Fin 1) k)) (fun k l => v15 (ix2 l k))
          (fun k => v34 (ix2 (0 : Fin 1) k)) q := by
  unfold k0_pay1
  refine (layer_apply _ v15 v34 p q).trans ?_
  unfold node
  refine congrArg (fun a => affine _ _ a q) (funext fun k => ?_)
  rw [truncf_apply, mulf_apply, maximumf_apply]
  unfold gated
  refine congrArg₂ (fun x y => max x zeroW * Ideal.logistic y) ?_ ?_
  · refine (layer_apply _ v9 v19 p k).trans ?_
    exact congrArg (fun a => affine _ _ a k) (funext fun l => mean_apply v0 v4 p l)
  · refine (layer_apply _ v12 v24 p k).trans ?_
    exact congrArg (fun a => affine _ _ a k) (funext fun l => mean_apply v0 v4 p l)

end Cert.KernelValue

end
-- ==== Proof.Blocks.lean ====
/-
  From the blocks to the array. The grid has 49 points; point t handles nodes 2048·t … 2048·t + 2047: it is handed
  those rows of the (padded) summed messages and degrees and the whole of each weight and bias, and writes back
  those rows of the output. Since every stored element is the node function of its own row
  (`KernelValue.payload_apply`), what point t writes back is block t of ONE function of the arrays as the region
  finds them — the node function applied row by row — and the 49 row blocks cover the 100352 padded rows, so the
  output array ends holding that function.
-/
import proofs.«108634_j11699490914481_1_alg».proof.Proof.Gen.KernelIdeal.Frame
import proofs.«108634_j11699490914481_1_alg».proof.Proof.Payload
import Idealize.ShloMosaic.Lib.Pipeline.Value
import Idealize.ShloMosaic.Lib.ValueIdx

noncomputable section

namespace Cert.KernelValue

open Cert.KernelIdeal Cert.KernelIdeal.Gen
open Idealize.ShloMosaic Idealize.ShloMosaic.TcCoe Idealize.SL.Sem Idealize.ShloMosaic.ValueIdx Cert.NodeSpec
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The printed index maps, decided over the 49 points -/

/-- The row-blocked windows (messages, degrees, output) are at row block t, column block 0, at point t. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The weight and bias windows are their whole arrays at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each input block as rows of its array -/

/-- Row p of point t's message block is row 2048·t + p of the padded message array. -/
theorem msgBlock_apply (c : Dev nD) (t : Fin cfg0.N) (p : Fin 2048) (l : Fin 128) (r : Fin 100352)
    (hr : r.val = t.val * 2048 + p.val) :
    (iblk m c 0 t : Vec Ideal S2048x128 .f32) (ix2 p l) = (V m c main_v25 : S100352x128.Idx → EReal) (ix2 r l) := by
  obtain ⟨e0, e1, -⟩ := idx_rows t
  unfold iblk
  rw [View.read_apply]
  show V m c main_v25 _ = V m c main_v25 _
  refine congrArg (V m c main_v25) (funext fun a => Fin.ext ?_)
  match a with
  | ⟨0, _⟩ => show win0_0.index t (0 : Fin 2) * 2048 + 1 * p.val = r.val; rw [e0, hr]; omega
  | ⟨1, _⟩ => show win0_0.index t (1 : Fin 2) * 128 + 1 * l.val = l.val; rw [e1]; omega

/-- Row p of point t's degree block is row 2048·t + p of the padded degree column. -/
theorem degBlock_apply (c : Dev nD) (t : Fin cfg0.N) (p : Fin 2048) (r : Fin 100352)
    (hr : r.val = t.val * 2048 + p.val) :
    (iblk m c 1 t : Vec Ideal S2048x1 .f32) (ix2 p (0 : Fin 1)) = (V m c main_v26 : S100352x1.Idx → EReal) (ix2 r (0 : Fin 1)) := by
  obtain ⟨-, -, e0, e1, -⟩ := idx_rows t
  unfold iblk
  rw [View.read_apply]
  show V m c main_v26 _ = V m c main_v26 _
  refine congrArg (V m c main_v26) (funext fun a => Fin.ext ?_)
  match a with
  | ⟨0, _⟩ => show win0_1.index t (0 : Fin 2) * 2048 + 1 * p.val = r.val; rw [e0, hr]; omega
  | ⟨1, _⟩ => show win0_1.index t (1 : Fin 2) * 1 + 1 * 0 = 0; rw [e1]

/-- A weight window's block is the weight array. -/
theorem w2Block_apply (c : Dev nD) (t : Fin cfg0.N) (l k : Fin 128) :
    (iblk m c 2 t : Vec Ideal S128x128 .f32) (ix2 l k) = (V m c main_v19 : S128x128.Idx → EReal) (ix2 l k) := by
  obtain ⟨e0, e1, -⟩ := idx_whole t
  unfold iblk
  rw [View.read_apply]
  show V m c main_v19 _ = V m c main_v19 _
  refine congrArg (V m c main_v19) (funext fun a => Fin.ext ?_)
  match a with
  | ⟨0, _⟩ => show win0_2.index t (0 : Fin 2) * 128 + 1 * l.val = l.val; rw [e0]; omega
  | ⟨1, _⟩ => show win0_2.index t (1 : Fin 2) * 128 + 1 * k.val = k.val; rw [e1]; omega
theorem w4Block_apply (c : Dev nD) (t : Fin cfg0.N) (l k : Fin 128) :
    (iblk m c 4 t : Vec Ideal S128x128 .f32) (ix2 l k) = (V m c main_v20 : S128x128.Idx → EReal) (ix2 l k) := by
  obtain ⟨-, -, -, -, e0, e1, -⟩ := idx_whole t
  unfold iblk
  rw [View.read_apply]
  show V m c main_v20 _ = V m c main_v20 _
  refine congrArg (V m c main_v20) (funext fun a => Fin.ext ?_)
  match a with
  | ⟨0, _⟩ => show win0_4.index t (0 : Fin 2) * 128 + 1 * l.val = l.val; rw [e0]; omega
  | ⟨1, _⟩ => show win0_4.index t (1 : Fin 2) * 128 + 1 * k.val = k.val; rw [e1]; omega
theorem w6Block_apply (c : Dev nD) (t : Fin cfg0.N) (l k : Fin 128) :
    (iblk m c 6 t : Vec Ideal S128x128 .f32) (ix2 l k) = (V m c main_v21 : S128x128.Idx → EReal) (ix2 l k) := by
  obtain ⟨-, -, -, -, -, -, -, -, e0, e1, -⟩ := idx_whole t
  unfold iblk
  rw [View.read_apply]
  show V m c main_v21 _ = V m c main_v21 _
  refine congrArg (V m c main_v21) (funext fun a => Fin.ext ?_)
  match a with
  | ⟨0, _⟩ => show win0_6.index t (0 : Fin 2) * 128 + 1 * l.val = l.val; rw [e0]; omega
  | ⟨1, _⟩ => show win0_6.index t (1 : Fin 2) * 128 + 1 * k.val = k.val; rw [e1]; omega

/-- A bias window's block is the bias row. -/
theorem b3Block_apply (c : Dev nD) (t : Fin cfg0.N) (k : Fin 128) :
    (iblk m c 3 t : Vec Ideal S1x128 .f32) (ix2 (0 : Fin 1) k) = (V m c main_v22 : S1x128.Idx → EReal) (ix2 (0 : Fin 1) k) := by
  obtain ⟨-, -, e0, e1, -⟩ := idx_whole t
  unfold iblk
  rw [View.read_apply]
  show V m c main_v22 _ = V m c main_v22 _
  refine congrArg (V m c main_v22) (funext fun a => Fin.ext ?_)
  match a with
  | ⟨0, _⟩ => show win0_3.index t (0 : Fin 2) * 1 + 1 * 0 = 0; rw [e0]
  | ⟨1, _⟩ => show win0_3.index t (1 : Fin 2) * 128 + 1 * k.val = k.val; rw [e1]; omega
theorem b5Block_apply (c : Dev nD) (t : Fin cfg0.N) (k : Fin 128) :
    (iblk m c 5 t : Vec Ideal S1x128 .f32) (ix2 (0 : Fin 1) k) = (V m c main_v23 : S1x128.Idx → EReal) (ix2 (0 : Fin 1) k) := by
  obtain ⟨-, -, -, -, -, -, e0, e1, -⟩ := idx_whole t
  unfold iblk
  rw [View.read_apply]
  show V m c main_v23 _ = V m c main_v23 _
  refine congrArg (V m c main_v23) (funext fun a => Fin.ext ?_)
  match a with
  | ⟨0, _⟩ => show win0_5.index t (0 : Fin 2) * 1 + 1 * 0 = 0; rw [e0]
  | ⟨1, _⟩ => show win0_5.index t (1 : Fin 2) * 128 + 1 * k.val = k.val; rw [e1]; omega
theorem b7Block_apply (c : Dev nD) (t : Fin cfg0.N) (k : Fin 128) :
    (iblk m c 7 t : Vec Ideal S1x128 .f32) (ix2 (0 : Fin 1) k) = (V m c main_v24 : S1x128.Idx → EReal) (ix2 (0 : Fin 1) k) := by
  obtain ⟨-, -, -, -, -, -, -, -, -, -, e0, e1⟩ := idx_whole t
  unfold iblk
  rw [View.read_apply]
  show V m c main_v24 _ = V m c main_v24 _
  refine congrArg (V m c main_v24) (funext fun a => Fin.ext ?_)
  match a with
  | ⟨0, _⟩ => show win0_7.index t (0 : Fin 2) * 1 + 1 * 0 = 0; rw [e0]
  | ⟨1, _⟩ => show win0_7.index t (1 : Fin 2) * 128 + 1 * k.val = k.val; rw [e1]; omega

/-! ## The output array as one function of the arrays the region finds -/

/-- The node function of equal arguments. -/
theorem node_congr {s s' : Fin 128 → EReal} {d d' : EReal} {Win Win' : Fin 128 → Fin 128 → EReal} {bin bin' : Fin 128 → EReal}
    {Wg Wg' : Fin 128 → Fin 128 → EReal} {bg bg' : Fin 128 → EReal} {Wo Wo' : Fin 128 → Fin 128 → EReal} {bo bo' : Fin 128 → EReal}
    {q : Fin 128} (h0 : s = s') (h1 : d = d') (h2 : Win = Win') (h3 : bin = bin') (h4 : Wg = Wg') (h5 : bg = bg')
    (h6 : Wo = Wo') (h7 : bo = bo') : node s d Win bin Wg bg Wo bo q = node s' d' Win' bin' Wg' bg' Wo' bo' q := by
  subst h0 h1 h2 h3 h4 h5 h6 h7; rfl

/-- The node function applied to every padded row: row r of the output from row r of the padded messages and
    degrees, the (input-major) weights and the bias rows, all as the region finds them. -/
def paddedOut (c : Dev nD) : Buf (Elt Ideal) ((c : Thread nD τ).loc main_v27) := fun i =>
  node (fun l => (V m c main_v25 : S100352x128.Idx → EReal) (ix2 (i 0) l))
    ((V m c main_v26 : S100352x1.Idx → EReal) (ix2 (i 0) (0 : Fin 1)))
    (fun k l => (V m c main_v19 : S128x128.Idx → EReal) (ix2 l k)) (fun k => (V m c main_v22 : S1x128.Idx → EReal) (ix2 (0 : Fin 1) k))
    (fun k l => (V m c main_v20 : S128x128.Idx → EReal) (ix2 l k)) (fun k => (V m c main_v23 : S1x128.Idx → EReal) (ix2 (0 : Fin 1) k))
    (fun k l => (V m c main_v21 : S128x128.Idx → EReal) (ix2 l k)) (fun k => (V m c main_v24 : S1x128.Idx → EReal) (ix2 (0 : Fin 1) k))
    (i 1)

/-- What point t writes back is block t of `paddedOut`. -/
theorem flushed_eq (c : Dev nD) (t : Fin cfg0.N) :
    (dats m 0 c).flushed 8 t = ((cfg0.win 8).blk t).view.read (Elt Ideal) (paddedOut m c) := by
  show (cfg0.win 8).cut (grid0.coords t) ((dats m 0 c).after 8 t) = _
  rw [after0_8]
  unfold out0_8
  rw [View.canon_unit_zero hz]
  simp only [View.ld_unit_zero (S := S2048x128) hz, View.ld_unit_zero (S := S2048x1) hz,
    View.ld_unit_zero (S := S128x128) hz, View.ld_unit_zero (S := S1x128) hz]
  obtain ⟨-, -, -, -, e0, e1⟩ := idx_rows t
  have hN : cfg0.N = 49 := N_0
  have ht : t.val < 49 := hN ▸ t.isLt
  funext y
  obtain ⟨p, q, rfl⟩ : ∃ (p : Fin 2048) (q : Fin 128), y = ix2 p q := ⟨y 0, y 1, eq_ix2 y⟩
  rw [View.read_apply]
  -- the stored element's place in the array: row 2048·t + p, column q
  have hi : ((cfg0.win 8).blk t).view.emb (ix2 p q)
      = (ix2 (⟨t.val * 2048 + p.val, by have := p.isLt; omega⟩ : Fin 100352) q : S100352x128.Idx) :=
    funext fun a => Fin.ext (by
      match a with
      | ⟨0, _⟩ => show win0_8.index t (0 : Fin 2) * 2048 + 1 * p.val = t.val * 2048 + p.val; rw [e0]; omega
      | ⟨1, _⟩ => show win0_8.index t (1 : Fin 2) * 128 + 1 * q.val = q.val; rw [e1]; omega)
  rw [hi]
  refine (payload_apply (iblk m c 1 t) (iblk m c 0 t) (iblk m c 2 t) (iblk m c 4 t) (iblk m c 6 t) (iblk m c 3 t)
    (iblk m c 5 t) (iblk m c 7 t) p q).trans ?_
  unfold paddedOut
  exact node_congr
    (funext fun l => msgBlock_apply m c t p l _ rfl) (degBlock_apply m c t p _ rfl)
    (funext fun k => funext fun l => w2Block_apply m c t l k) (funext fun k => b3Block_apply m c t k)
    (funext fun k => funext fun l => w4Block_apply m c t l k) (funext fun k => b5Block_apply m c t k)
    (funext fun k => funext fun l => w6Block_apply m c t l k) (funext fun k => b7Block_apply m c t k)

/-- An index of the output array is in point t's block iff each coordinate is in the block's range on its axis. -/
theorem mem_blk (t : Fin cfg0.N) (i : S100352x128.Idx) :
    i ∈ ((cfg0.win 8).blk t).view.set
      ↔ ∀ a : Fin 2, win0_8.index t a * S2048x128.size a ≤ (i a).val ∧ (i a).val < win0_8.index t a * S2048x128.size a + S2048x128.size a := by
  show i ∈ ((View.whole main_v27).slice (win0_8.rect t)).set ↔ _
  rw [View.set_slice_whole, Rect.mem_set_unit]
  exact Iff.rfl

/-- The 49 row blocks cover the padded rows (row r is in block r / 2048), so the output array ends holding
    `paddedOut`. -/
theorem final (c : Dev nD) : (dats m 0 c).arrAt 8 cfg0.N = paddedOut m c :=
  (dats m 0 c).arrAt_eq_of_cover 8 (paddedOut m c) (fun t _ => flushed_eq m c t) fun i => by
    have hi0 : (i 0).val < 100352 := (i 0).isLt
    have hi1 : (i 1).val < 128 := (i 1).isLt
    have hN : cfg0.N = 49 := N_0
    have hlt : (i 0).val / 2048 < cfg0.N := by rw [hN]; omega
    obtain ⟨-, -, -, -, e0, e1⟩ := idx_rows ⟨(i 0).val / 2048, hlt⟩
    refine ⟨⟨(i 0).val / 2048, hlt⟩, flush0_8 _, ?_⟩
    rw [mem_blk]
    intro a
    match a with
    | ⟨0, _⟩ =>
      show win0_8.index ⟨(i 0).val / 2048, hlt⟩ (0 : Fin 2) * 2048 ≤ (i 0).val
        ∧ (i 0).val < win0_8.index ⟨(i 0).val / 2048, hlt⟩ (0 : Fin 2) * 2048 + 2048
      rw [e0]
      show (i 0).val / 2048 * 2048 ≤ (i 0).val ∧ (i 0).val < (i 0).val / 2048 * 2048 + 2048
      omega
    | ⟨1, _⟩ =>
      show win0_8.index ⟨(i 0).val / 2048, hlt⟩ (1 : Fin 2) * 128 ≤ (i 1).val
        ∧ (i 1).val < win0_8.index ⟨(i 0).val / 2048, hlt⟩ (1 : Fin 2) * 128 + 128
      rw [e1]
      omega

end Cert.KernelValue

end
-- ==== Proof.EntryMsgs.lean ====
/-
  What the region finds in its first operand: the summed messages, padded with 352 zero rows. Before the region the
  program gathers the source rows of the feature matrix along the edges and adds each into its destination's row
  — the same operations, on the same arguments, that the reference starts with, so the sum is named here by the
  reference's own stage — and pads the 100000 rows to 49 blocks of 2048. A row below 100000 of the padded array
  is that row of the sum.
-/
import proofs.«108634_j11699490914481_1_alg».proof.Proof.Gen.KernelIdeal.Frame
import proofs.«108634_j11699490914481_1_alg».proof.Proof.Gen.ReferenceIdeal.Read
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout
import Idealize.ShloMosaic.PureOps.Ideal

noncomputable section

namespace Cert.KernelValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The summed messages of the program's own arguments: every edge's source row added into its destination's row. -/
abbrev msgs (c : Dev nD) : S100000x128.Idx → EReal :=
  Cert.ReferenceIdeal.Read.val_main_v13 (F := Ideal) (m ((c : Thread nD τ).loc main_arg0)) (m ((c : Thread nD τ).loc main_arg1))

set_option maxHeartbeats 1000000 in
/-- The region's first operand at entry: the summed messages padded below with zero rows. -/
theorem entry_msgs (c : Dev nD) : (V m c main_v25 : S100352x128.Idx → EReal)
    = pad S100352x128 ![0, 0] ![352, 0] ![0, 0] (msgs m c)
        (sitofp (F := Ideal) .f32 (constantI S_ 32 0#32)) pads_S100000x128_S100352x128_03520_000 h_S_ := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  simp only [TRef.toBuf, TRef.ofBuf, cast_eq]
  rfl

/-- A row below 100000 of the padded array is that row of the summed messages. -/
theorem msgs_at (c : Dev nD) (r : Fin 100352) (hr : r.val < 100000) (l : Fin 128) :
    (V m c main_v25 : S100352x128.Idx → EReal) (ix2 r l) = msgs m c (ix2 (⟨r.val, hr⟩ : Fin 100000) l) := by
  rw [entry_msgs]
  exact pad_apply_of_inside ![0, 0] ![352, 0] ![0, 0] _ _ pads_S100000x128_S100352x128_03520_000 h_S_ (ix2 r l)
    (ix2 (⟨r.val, hr⟩ : Fin 100000) l) (fun a => by
      match a with
      | ⟨0, _⟩ => show r.val = 0 + r.val * (0 + 1); omega
      | ⟨1, _⟩ => show l.val = 0 + l.val * (0 + 1); omega)

end Cert.KernelValue

end
-- ==== Proof.EntryRest.lean ====
/-
  What the region finds in its other operands: the in-degrees as a column, padded with 352 zero rows; each weight
  matrix transposed (so the body reads it input-major); each bias as one row. The degrees are the count of edges
  into each node — a sum of ones scattered along the destinations, the same operations on the same argument as
  the reference's, and named here by the reference's own stage.
-/
import proofs.«108634_j11699490914481_1_alg».proof.Proof.Gen.KernelIdeal.Frame
import proofs.«108634_j11699490914481_1_alg».proof.Proof.Gen.ReferenceIdeal.Read
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout
import Idealize.ShloMosaic.PureOps.Ideal

noncomputable section

namespace Cert.KernelValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The in-degree of every node of the program's own edge list. -/
abbrev degs (c : Dev nD) : S100000.Idx → EReal :=
  Cert.ReferenceIdeal.Read.val_main_v17 (F := Ideal) (m ((c : Thread nD τ).loc main_arg1))

set_option maxHeartbeats 1000000 in
/-- The region's second operand at entry: the degrees as a column, padded below with zero rows. -/
theorem entry_degs (c : Dev nD) : (V m c main_v26 : S100352x1.Idx → EReal)
    = pad S100352x1 ![0, 0] ![352, 0] ![0, 0] (broadcastInDim S100000x1 ![0] bcast_S100000_S100000x1_0 (degs m c))
        (sitofp (F := Ideal) .f32 (constantI S_ 32 0#32)) pads_S100000x1_S100352x1_03520_000 h_S_ := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  simp only [TRef.toBuf, TRef.ofBuf, cast_eq]
  rfl

/-- A row below 100000 of the padded column is that node's degree. -/
theorem degs_at (c : Dev nD) (r : Fin 100352) (hr : r.val < 100000) :
    (V m c main_v26 : S100352x1.Idx → EReal) (ix2 r (0 : Fin 1)) = degs m c (ix1 (⟨r.val, hr⟩ : Fin 100000)) := by
  rw [entry_degs]
  refine (pad_apply_of_inside ![0, 0] ![352, 0] ![0, 0] _ _ pads_S100000x1_S100352x1_03520_000 h_S_ (ix2 r (0 : Fin 1))
    (ix2 (⟨r.val, hr⟩ : Fin 100000) (0 : Fin 1)) (fun a => by
      match a with
      | ⟨0, _⟩ => show r.val = 0 + r.val * (0 + 1); omega
      | ⟨1, _⟩ => show (0 : Nat) = 0 + 0 * (0 + 1); rfl)).trans ?_
  exact broadcastInDim_apply _ bcast_S100000_S100000x1_0 _ (ix2 (⟨r.val, hr⟩ : Fin 100000) (0 : Fin 1))
    (ix1 (⟨r.val, hr⟩ : Fin 100000)) (fun a => match a with
      | ⟨0, _⟩ => by show r.val = if (100000 : Nat) = 1 then 0 else r.val; rw [if_neg (by decide)])

set_option maxHeartbeats 1000000 in
/-- The input layer's weight reaches the region transposed. -/
theorem entry_w2 (c : Dev nD) : (V m c main_v19 : S128x128.Idx → EReal)
    = transpose S128x128 [1, 0] (m ((c : Thread nD τ).loc main_arg2)) transposes_S128x128_S128x128_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  try rfl
set_option maxHeartbeats 1000000 in
/-- The gate's weight reaches the region transposed. -/
theorem entry_w4 (c : Dev nD) : (V m c main_v20 : S128x128.Idx → EReal)
    = transpose S128x128 [1, 0] (m ((c : Thread nD τ).loc main_arg4)) transposes_S128x128_S128x128_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  try rfl
set_option maxHeartbeats 1000000 in
/-- The output layer's weight reaches the region transposed. -/
theorem entry_w6 (c : Dev nD) : (V m c main_v21 : S128x128.Idx → EReal)
    = transpose S128x128 [1, 0] (m ((c : Thread nD τ).loc main_arg6)) transposes_S128x128_S128x128_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  try rfl
set_option maxHeartbeats 1000000 in
/-- The input layer's bias reaches the region as one row. -/
theorem entry_b3 (c : Dev nD) : (V m c main_v22 : S1x128.Idx → EReal)
    = shapeCast S1x128 (m ((c : Thread nD τ).loc main_arg3)) shapeCasts_S128_S1x128 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  try rfl
set_option maxHeartbeats 1000000 in
/-- The gate's bias reaches the region as one row. -/
theorem entry_b5 (c : Dev nD) : (V m c main_v23 : S1x128.Idx → EReal)
    = shapeCast S1x128 (m ((c : Thread nD τ).loc main_arg5)) shapeCasts_S128_S1x128 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  try rfl
set_option maxHeartbeats 1000000 in
/-- The output layer's bias reaches the region as one row. -/
theorem entry_b7 (c : Dev nD) : (V m c main_v24 : S1x128.Idx → EReal)
    = shapeCast S1x128 (m ((c : Thread nD τ).loc main_arg7)) shapeCasts_S128_S1x128 := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  try rfl

/-- The transposed weights read at (l, k) are the weights at (k, l). -/
theorem w2_at (c : Dev nD) (l k : Fin 128) :
    (V m c main_v19 : S128x128.Idx → EReal) (ix2 l k) = (m ((c : Thread nD τ).loc main_arg2) : S128x128.Idx → EReal) (ix2 k l) := by
  rw [entry_w2]; exact transpose_ix2_apply _ transposes_S128x128_S128x128_1_0 l k
theorem w4_at (c : Dev nD) (l k : Fin 128) :
    (V m c main_v20 : S128x128.Idx → EReal) (ix2 l k) = (m ((c : Thread nD τ).loc main_arg4) : S128x128.Idx → EReal) (ix2 k l) := by
  rw [entry_w4]; exact transpose_ix2_apply _ transposes_S128x128_S128x128_1_0 l k
theorem w6_at (c : Dev nD) (l k : Fin 128) :
    (V m c main_v21 : S128x128.Idx → EReal) (ix2 l k) = (m ((c : Thread nD τ).loc main_arg6) : S128x128.Idx → EReal) (ix2 k l) := by
  rw [entry_w6]; exact transpose_ix2_apply _ transposes_S128x128_S128x128_1_0 l k

/-- The bias rows read at (0, k) are the biases at k. -/
theorem b3_at (c : Dev nD) (k : Fin 128) :
    (V m c main_v22 : S1x128.Idx → EReal) (ix2 (0 : Fin 1) k) = (m ((c : Thread nD τ).loc main_arg3) : S128.Idx → EReal) (ix1 k) := by
  rw [entry_b3]; exact shapeCast_a_1a_apply _ shapeCasts_S128_S1x128 (0 : Fin 1) k
theorem b5_at (c : Dev nD) (k : Fin 128) :
    (V m c main_v23 : S1x128.Idx → EReal) (ix2 (0 : Fin 1) k) = (m ((c : Thread nD τ).loc main_arg5) : S128.Idx → EReal) (ix1 k) := by
  rw [entry_b5]; exact shapeCast_a_1a_apply _ shapeCasts_S128_S1x128 (0 : Fin 1) k
theorem b7_at (c : Dev nD) (k : Fin 128) :
    (V m c main_v24 : S1x128.Idx → EReal) (ix2 (0 : Fin 1) k) = (m ((c : Thread nD τ).loc main_arg7) : S128.Idx → EReal) (ix1 k) := by
  rw [entry_b7]; exact shapeCast_a_1a_apply _ shapeCasts_S128_S1x128 (0 : Fin 1) k

end Cert.KernelValue

end
-- ==== Proof.KernelRun.lean ====
/-
  The kernel program's run, read. After the region the program keeps the first 100000 rows of the padded output.
  Row r < 100000 of the padded output is the node function of row r of the padded inputs, which are rows of the
  summed messages and the degrees themselves (the zero rows of the padding feed only the rows that are cut away),
  with the weights read back through their transposition and the biases through their reshaping. So the result is
  the node function of every node: the same function of the same arguments as the reference's.
-/
import proofs.«108634_j11699490914481_1_alg».proof.Proof.Gen.KernelIdeal.Frame
import proofs.«108634_j11699490914481_1_alg».proof.Proof.Blocks
import proofs.«108634_j11699490914481_1_alg».proof.Proof.EntryMsgs
import proofs.«108634_j11699490914481_1_alg».proof.Proof.EntryRest
import Idealize.ShloMosaic.Lib.StableHlo.Run
import Idealize.ShloMosaic.Lib.ValueLayout

noncomputable section

namespace Cert.KernelValue

open Cert.KernelIdeal Cert.KernelIdeal.Gen
open Idealize.ShloMosaic Idealize.ShloMosaic.TcCoe Idealize.SL.Sem Idealize.ShloMosaic.StableHlo Idealize.ShloMosaic.ValueIdx Cert.NodeSpec

variable (m : (ℓ : Loc nD τ sig) → Buf (Elt Ideal) ℓ) (ρ : Dev nD → PrngReg)

/-- What the program returns: for node i, the node function of its summed messages and its degree, under the
    three layers' parameters as the program was given them. -/
def result (c : Dev nD) : Buf (Elt Ideal) ((c : Thread nD τ).loc main_v28) := fun i =>
  node (fun l => msgs m c (ix2 (i 0) l)) (degs m c (ix1 (i 0)))
    (fun k l => (m ((c : Thread nD τ).loc main_arg2) : S128x128.Idx → EReal) (ix2 k l))
    (fun k => (m ((c : Thread nD τ).loc main_arg3) : S128.Idx → EReal) (ix1 k))
    (fun k l => (m ((c : Thread nD τ).loc main_arg4) : S128x128.Idx → EReal) (ix2 k l))
    (fun k => (m ((c : Thread nD τ).loc main_arg5) : S128.Idx → EReal) (ix1 k))
    (fun k l => (m ((c : Thread nD τ).loc main_arg6) : S128x128.Idx → EReal) (ix2 k l))
    (fun k => (m ((c : Thread nD τ).loc main_arg7) : S128.Idx → EReal) (ix1 k))
    (i 1)

set_option maxHeartbeats 1000000 in
/-- The rows the program keeps, of the array the blocks left, are `result`. -/
theorem tail_eq (c : Dev nD) : Pipeline.afterTail₀ cfgs (dats m) 0 (V0 m) [hostOps1] c main_v28 = result m c := by
  unfold Pipeline.afterTail₀
  show StableHlo.after hostOps1 _ (Proc.devRef .tc main_v28) = _
  after_results
  -- the region's output array after the run is what the blocks left
  have hA : Pipeline.withArrays (cfgs 0).spec c (V0 m c) (fun w => (dats m 0 c).arrAt w (cfgs 0).N) (Proc.devRef .tc main_v27)
      = paddedOut m c :=
    (Pipeline.withArrays_arr spec0 launch0.win.arr_inj c _ _ 8).trans (final m c)
  rw [hA]
  funext i
  obtain ⟨r, j, rfl⟩ : ∃ (r : Fin 100000) (j : Fin 128), i = ix2 r j := ⟨i 0, i 1, eq_ix2 i⟩
  have hr : r.val < 100352 := by have := r.isLt; omega
  -- the cut keeps row r as row r
  refine (slice2_axis0_apply 0 _ slices_S100352x128_S100000x128_0_0 r j (⟨r.val, hr⟩ : Fin 100352)
    (by show r.val = 0 + r.val; omega)).trans ?_
  unfold paddedOut result
  exact node_congr (funext fun l => msgs_at m c ⟨r.val, hr⟩ r.isLt l) (degs_at m c ⟨r.val, hr⟩ r.isLt)
    (funext fun k => funext fun l => w2_at m c l k) (funext fun k => b3_at m c k)
    (funext fun k => funext fun l => w4_at m c l k) (funext fun k => b5_at m c k)
    (funext fun k => funext fun l => w6_at m c l k) (funext fun k => b7_at m c k)

/-- The run: every weakly fair execution ends with the result array at `result` and the arguments as launched. -/
theorem run : θ_run defs (onTc (τ := τ) (main (F := Ideal))) ⟨m, fun _ => 0, ρ⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      ((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelValue

end
-- ==== Proof.lean ====
/-
  A graph layer: every node averages the feature rows of its in-neighbours (the rows gathered along the edges and
  added into their destinations, over the in-degree floored at one) and passes the average through a gated
  two-layer perceptron: out = (max(a·Winᵀ + bin, 0) · logistic(a·Wgᵀ + bg))·Woᵀ + bo.

  The kernel program forms the sums and the degrees on the host with the very operations the reference uses, pads
  the 100000 nodes to 49 blocks of 2048, runs the perceptron block by block in one pallas_call (weights transposed
  beforehand, three products into zero accumulators, `tpu.logistic` for the gate) and cuts the padding off again.
  The reference divides, multiplies by the transposed weights with `dot_general`, and spells the gate
  `1 / (1 + exp (-x))`.

  On the extended reals both results are, entry by entry, ONE function of the arguments: feature j of
  `NodeSpec.node` at node i's summed messages and degree (Proof/NodeSpec.lean). The reference is read stage by
  stage (Proof/RefValue.lean); the kernel's stored element is read off its body (Proof/Payload.lean), its blocks are
  assembled into the padded output (Proof/Blocks.lean), the arrays the region finds are read back to the arguments
  (Proof/EntryMsgs.lean, Proof/EntryRest.lean) and the tail's cut is applied (Proof/KernelRun.lean). Two identities
  join the two spellings, both valid at every extended real: `max` is commutative (the degree's floor is written
  max(d, 1) on one side and max(1, d) on the other), and the logistic function is by definition the quotient the
  reference spells. No sum is reordered, so finiteness of the inputs is never used.

  The frames are the programs' own runs; the idealized kernel is the kernel's text read at the extended reals (the
  ideal pass rewrote nothing), so `preserves` has nothing to state.
-/
import proofs.«108634_j11699490914481_1_alg».proof.Defs
import proofs.«108634_j11699490914481_1_alg».proof.Proof.Gen.Kernel
import proofs.«108634_j11699490914481_1_alg».proof.Proof.Gen.Kernel.Skeleton
import proofs.«108634_j11699490914481_1_alg».proof.Proof.Gen.Kernel.Launch
import proofs.«108634_j11699490914481_1_alg».proof.Proof.Gen.Kernel.Points
import proofs.«108634_j11699490914481_1_alg».proof.Proof.Gen.Kernel.Frame
import proofs.«108634_j11699490914481_1_alg».proof.Proof.Gen.KernelIdeal
import proofs.«108634_j11699490914481_1_alg».proof.Proof.Gen.KernelIdeal.Skeleton
import proofs.«108634_j11699490914481_1_alg».proof.Proof.Gen.KernelIdeal.Launch
import proofs.«108634_j11699490914481_1_alg».proof.Proof.Gen.KernelIdeal.Points
import proofs.«108634_j11699490914481_1_alg».proof.Proof.Gen.KernelIdeal.Frame
import proofs.«108634_j11699490914481_1_alg».proof.Proof.Gen.ReferenceIdeal
import proofs.«108634_j11699490914481_1_alg».proof.Proof.Gen.ReferenceIdeal.Run
import proofs.«108634_j11699490914481_1_alg».proof.Proof.Gen.ReferenceIdeal.Read
import proofs.«108634_j11699490914481_1_alg».proof.Proof.Gen.Pre_finite_inputs
import proofs.«108634_j11699490914481_1_alg».proof.Proof.RefValue
import proofs.«108634_j11699490914481_1_alg».proof.Proof.KernelRun
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs end with the node function of every node: the kernel
    program by its run read through the blocks and the tail, the reference by its stages read at an element. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  obtain ⟨a0, a1, a2, a3, a4, a5, a6, a7⟩ := hagree c
  rw [a0, a1, a2, a3, a4, a5, a6, a7]
  funext i
  obtain ⟨r, j, rfl⟩ : ∃ (r : Fin 100000) (j : Fin 128), i = ix2 r j := ⟨i 0, i 1, eq_ix2 i⟩
  exact Cert.RefValue.result_apply _ _ _ _ _ _ _ _ r j

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
